-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x64 : Shape := ⟨4, ![2, 8, 2048, 64]⟩
abbrev S2048x2048 : Shape := ⟨2, ![2048, 2048]⟩
abbrev S_ : Shape := ⟨0, ![]⟩

class Facts : Prop where
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2x8x2048x64 .f32) (main_arg1 : FVec F S2x8x2048x64 .f32) (main_arg2 : FVec F S2x8x2048x64 .f32) (main_arg3 : FVec F S2048x2048 .f32) : IVec S_ 1 :=
  let main_v0 : FVec F S2x8x2048x64 .f32 := Host.absf main_arg0
  let main_cst : FVec F S_ .f32 := constant S_ .f32 0x7F800000#32
  let main_v1 : FVec F S2x8x2048x64 .f32 := broadcastInDim S2x8x2048x64 ![] bcast_S_S2x8x2048x64 main_cst
  let main_v2 : IVec S2x8x2048x64 1 := cmpf .olt main_v0 main_v1
  let main_c : IVec S_ 1 := constantI S_ 1 1#1
  let main_v3 : IVec S_ 1 := (fun x v => Host.reduce IntOp.andi x v reducesTo_S2x8x2048x64_S_d0_1_2_3 h_S_) main_v2 main_c
  let main_v4 : FVec F S2x8x2048x64 .f32 := Host.absf main_arg1
  let main_cst_0 : FVec F S_ .f32 := constant S_ .f32 0x7F800000#32
  let main_v5 : FVec F S2x8x2048x64 .f32 := broadcastInDim S2x8x2048x64 ![] bcast_S_S2x8x2048x64 main_cst_0
  let main_v6 : IVec S2x8x2048x64 1 := cmpf .olt main_v4 main_v5
  let main_c_1 : IVec S_ 1 := constantI S_ 1 1#1
  let main_v7 : IVec S_ 1 := (fun x v => Host.reduce IntOp.andi x v reducesTo_S2x8x2048x64_S_d0_1_2_3 h_S_) main_v6 main_c_1
  let main_v8 : IVec S_ 1 := andi main_v3 main_v7
  let main_v9 : FVec F S2x8x2048x64 .f32 := Host.absf main_arg2
  let main_cst_2 : FVec F S_ .f32 := constant S_ .f32 0x7F800000#32
  let main_v10 : FVec F S2x8x2048x64 .f32 := broadcastInDim S2x8x2048x64 ![] bcast_S_S2x8x2048x64 main_cst_2
  let main_v11 : IVec S2x8x2048x64 1 := cmpf .olt main_v9 main_v10
  let main_c_3 : IVec S_ 1 := constantI S_ 1 1#1
  let main_v12 : IVec S_ 1 := (fun x v => Host.reduce IntOp.andi x v reducesTo_S2x8x2048x64_S_d0_1_2_3 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S2x8x2048x64 : Shape := ⟨4, ![2, 8, 2048, 64]⟩
abbrev S2048x2048 : Shape := ⟨2, ![2048, 2048]⟩
abbrev S1x1x512x64 : Shape := ⟨4, ![1, 1, 512, 64]⟩
abbrev S1x1x2048x64 : Shape := ⟨4, ![1, 1, 2048, 64]⟩
abbrev S_ : Shape := ⟨0, ![]⟩
abbrev S512x2048 : Shape := ⟨2, ![512, 2048]⟩
abbrev S512 : Shape := ⟨1, ![512]⟩
abbrev S512x1 : Shape := ⟨2, ![512, 1]⟩
abbrev S512x64 : Shape := ⟨2, ![512, 64]⟩
abbrev S2048x64 : Shape := ⟨2, ![2048, 64]⟩

abbrev nBuf : Space → Nat
  | .hbm => 5
  | .vmem => 9
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2048x2048, .f32⟩
  | .hbm, ⟨4, _⟩ => ⟨S2x8x2048x64, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x64, .f32⟩
  | .local _ .vmem, ⟨7, _⟩ => ⟨S1x1x512x64, .f32⟩
  | .local _ .vmem, ⟨8, _⟩ => ⟨S2048x2048, .f32⟩
  | _, _ => ⟨S2x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 4], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_off1 (c0_i32_24 : BitVec 32) : Fin 2 → Nat :=
  let c512_i32_25 : BitVec 32 := 512#32
  let v42 : BitVec 32 := Scalar.muli c0_i32_24 c512_i32_25
  let v43 : Index := Scalar.indexCast v42
  let c0_26 : Index := 0#32
  ![v43.toNat, 0]
def k0_off2 (i : grid0.Coords) : Fin 2 → Nat :=
  let arg2 : BitVec 32 := BitVec.ofNat 32 (i 2).val
  let c512_i32 : BitVec 32 := 512#32
  let v25 : BitVec 32 := Scalar.muli arg2 c512_i32
  let v26 : Index := Scalar.indexCast v25
  let c0_16 : Index := 0#32
  ![v26.toNat, 0]
def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  h_S512x2048 : 0 < S512x2048.numel
  reduces_S512x2048_S512 : S512x2048.Reduces [1] S512
  shapeCasts_S512_S512x1 : S512.ShapeCasts S512x1
  broadcasts_S512x1_S512x2048 : S512x1.Broadcasts S512x2048
  shapeCasts_S512x2048_S512x2048 : S512x2048.ShapeCasts S512x2048
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  bitsLt_bf16_f32 : FTy.bits .bf16 < FTy.bits .f32
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hcc0_scratch1 : 8 + S_.numel ≤ 9
  hrank0 : 0 < grid0.rank
  k0_off1_inb : ∀ i : grid0.Coords, ∀ (k0_h1 : k0_cond1 i = 1#1), ∀ (r : Fin 4), ∀ a, (k0_off1 (BitVec.ofNat 32 r.val)) a + S512x2048.size a ≤ S2048x2048.size a
  k0_off2_inb : ∀ i : grid0.Coords, ∀ a, (k0_off2 i) a + S512x2048.size a ≤ S2048x2048.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1x1x512x64.size a ≤ S2x8x2048x64.size a
  hwx0_0 : ∀ i : grid0.Coords, EltTy.bits .f32 = 32 ∨ (Rect.block (s := S2x8x2048x64) S1x1x512x64.size (cc0_transform_1 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S1x1x2048x64.size a ≤ S2x8x2048x64.size a
  hwx0_1 : ∀ i : grid0.Coords, EltTy.bits .f32 = 32 ∨ (Rect.block (s := S2x8x2048x64) S1x1x2048x64.size (cc0_transform_2 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S1x1x2048x64.size a ≤ S2x8x2048x64.size a
  hwx0_2 : ∀ i : grid0.Coords, EltTy.bits .f32 = 32 ∨ (Rect.block (s := S2x8x2048x64) S1x1x2048x64.size (cc0_transform_3 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S1x1x512x64.size a ≤ S2x8x2048x64.size a
  hwx0_3 : ∀ i : grid0.Coords, EltTy.bits .f32 = 32 ∨ (Rect.block (s := S2x8x2048x64) S1x1x512x64.size (cc0_transform_4 i) (hinb0_3 i)).WholeWords (EltTy.packing .f32)

variable [Facts₀]

abbrev cc0_scratch1 : DmaSems sig S_ := SemArray.consecutive 8 S_ hcc0_scratch1
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_1 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_2 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_3 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x512x64.size cc0_transform_4 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8x2048x64 : Shape := ⟨4, ![2, 8, 2048, 64]⟩
abbrev S2048x2048 : Shape := ⟨2, ![2048, 2048]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S2x8x2048 : Shape := ⟨3, ![2, 8, 2048]⟩
abbrev S2x8x2048x1 : Shape := ⟨4, ![2, 8, 2048, 1]⟩
abbrev S1x1x2048x2048 : Shape := ⟨4, ![1, 1, 2048, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2048x2048, .f32⟩
  | .hbm, ⟨4, _⟩ => ⟨S2x8x2048x2048, .f32⟩
  | .hbm, ⟨5, _⟩ => ⟨S_, .f32⟩
  | .hbm, ⟨6, _⟩ => ⟨S2x8x2048x2048, .f32⟩
  | .hbm, ⟨7, _⟩ => ⟨S2x8x2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2x8x2048, .f32⟩
  | .hbm, ⟨27, _⟩ => ⟨S_, .f32⟩
  | .hbm, ⟨28, _⟩ => ⟨S2x8x2048, .f32⟩
  | .hbm, ⟨29, _⟩ => ⟨S2x8x2048, .f32⟩
  | .hbm, ⟨30, _⟩ => ⟨S2x8x2048x1, .f32⟩
  | .hbm, ⟨31, _⟩ => ⟨S2x8x2048x2048, .f32⟩
  | .hbm, ⟨32, _⟩ => ⟨S2x8x2048x2048, .f32⟩
  | .hbm, ⟨33, _⟩ => ⟨S2x8x2048x2048, .f32⟩
  | .hbm, ⟨34, _⟩ => ⟨S_, .f32⟩
  | .hbm, ⟨35, _⟩ => ⟨S2x8x2048, .f32⟩
  | .hbm, ⟨36, _⟩ => ⟨S2x8x2048x1, .f32⟩
  | .hbm, ⟨37, _⟩ => ⟨S2x8x2048x2048, .f32⟩
  | .hbm, ⟨38, _⟩ => ⟨S2x8x2048x2048, .f32⟩
  | .hbm, ⟨39, _⟩ => ⟨S1x1x2048x2048, .f32⟩
  | .hbm, ⟨40, _⟩ => ⟨S2x8x2048x2048, .f32⟩
  | .hbm, ⟨41, _⟩ => ⟨S2x8x2048x2048, .f32⟩
  | .hbm, ⟨42, _⟩ => ⟨S_, .f32⟩
  | .hbm, ⟨43, _⟩ => ⟨S2x8x2048, .f32⟩
  | .hbm, ⟨44, _⟩ => ⟨S_, .f32⟩
  | .hbm, ⟨45, _⟩ => ⟨S2x8x2048, .f32⟩
  | .hbm, ⟨46, _⟩ => ⟨S2x8x2048, .f32⟩
  | .hbm, ⟨47, _⟩ => ⟨S2x8x2048x1, .f32⟩
  | .hbm, ⟨48, _⟩ => ⟨S2x8x2048x2048, .f32⟩
  | .hbm, ⟨49, _⟩ => ⟨S2x8x2048x2048, .f32⟩
  | .hbm, ⟨50, _⟩ => ⟨S2x8x2048x2048, .f32⟩
  | .hbm, ⟨51, _⟩ => ⟨S_, .f32⟩
  | .hbm, ⟨52, _⟩ => ⟨S2x8x2048, .f32⟩
  | .hbm, ⟨53, _⟩ => ⟨S2x8x2048x1, .f32⟩
  | .hbm, ⟨54, _⟩ => ⟨S2x8x2048x2048, .f32⟩
  | .hbm, ⟨55, _⟩ => ⟨S2x8x2048x2048, .f32⟩
  | .hbm, ⟨56, _⟩ => ⟨S2x8x2048x64, .f32⟩
  | _, _ => ⟨S2x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  bcast_S_S2x8x2048x2048 : S_.BroadcastsInDim S2x8x2048x2048 (![] : Fin 0 → Fin S2x8x2048x2048.rank)
  bcast_S_S2048x2048 : S_.BroadcastsInDim S2048x2048 (![] : Fin 0 → Fin S2048x2048.rank)
  reducesTo_S2048x2048_S2048_d1 : S2048x2048.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  reducesTo_S2x8x2048x2048_S2x8x2048_d3 : S2x8x2048x2048.ReducesTo [3] S2x8x2048
  bcast_S_S2x8x2048 : S_.BroadcastsInDim S2x8x2048 (![] : Fin 0 → Fin S2x8x2048.rank)
  bcast_S2x8x2048_S2x8x2048x1_0_1_2 : S2x8x2048.BroadcastsInDim S2x8x2048x1 (![0, 1, 2] : Fin 3 → Fin S2x8x2048x1.rank)
  bcast_S2x8x2048x1_S2x8x2048x2048_0_1_2_3 : S2x8x2048x1.BroadcastsInDim S2x8x2048x2048 (![0, 1, 2, 3] : Fin 4 → Fin S2x8x2048x2048.rank)
  bcast_S2048x2048_S1x1x2048x2048_2_3 : S2048x2048.BroadcastsInDim S1x1x2048x2048 (![2, 3] : Fin 2 → Fin S1x1x2048x2048.rank)
  bcast_S1x1x2048x2048_S2x8x2048x2048_0_1_2_3 : S1x1x2048x2048.BroadcastsInDim S2x8x2048x2048 (![0, 1, 2, 3] : Fin 4 → Fin S2x8x2048x2048.rank)
  dot_S2x8x2048x64_S2x8x2048x64_S2x8x2048x2048_3_3_2_2_01_01_wf : DotDims.WF S2x8x2048x64 S2x8x2048x64 S2x8x2048x2048 [3] [3] [2] [2] [0, 1] [0, 1]
  dot_S2x8x2048x2048_S2x8x2048x64_S2x8x2048x64_3_2_2_3_01_01_wf : DotDims.WF S2x8x2048x2048 S2x8x2048x64 S2x8x2048x64 [3] [2] [2] [3] [0, 1] [0, 1]

variable [Facts₀]

def dot_S2x8x2048x64_S2x8x2048x64_S2x8x2048x2048_3_3_2_2_01_01 : DotDims S2x8x2048x64 S2x8x2048x64 S2x8x2048x2048 where
  lhsContracting := [3]
  rhsContracting := [3]
  lhsNonContracting := [2]
  rhsNonContracting := [2]
  lhsBatch := [0, 1]
  rhsBatch := [0, 1]
  wf := dot_S2x8x2048x64_S2x8x2048x64_S2x8x2048x2048_3_3_2_2_01_01_wf
def dot_S2x8x2048x2048_S2x8x2048x64_S2x8x2048x64_3_2_2_3_01_01 : DotDims S2x8x2048x2048 S2x8x2048x64 S2x8x2048x64 where
  lhsContracting := [3]
  rhsContracting := [2]
  lhsNonContracting := [2]
  rhsNonContracting := [3]
  lhsBatch := [0, 1]
  rhsBatch := [0, 1]
  wf := dot_S2x8x2048x2048_S2x8x2048x64_S2x8x2048x64_3_2_2_3_01_01_wf

class Facts : Prop extends Facts₀ where

variable [Facts]
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.LibSoftmaxRows.lean ====
/-
  Row softmax on the extended reals, and the vector operations that compute it on an `[a, b]` array, read at an entry.

  For a row `f : Fin n → EReal`: `rowMax f` is the fold of `max` over its entries from `-∞` (the f32 word
  `0xFF800000`), `expShift f k = exp (f k - rowMax f)`, `overSum g k = g k / ∑ j, g j`, and
  `softmaxRow f = overSum (expShift f)`.  One more maximum with `-∞` does not change a row's maximum.
  For an `[a, b]` array `v` of f32 values at the extended reals, any extents: its row maxima (a maximum-reduction along
  axis 1 from `-∞`) re-laid as a column and spread back over the lanes read, at `(r, k)`, `rowMax` of row `r`; its row
  sums (an add-reduction along axis 1 from zero) likewise read the row's sum; so `exp (v - spread maxima)` at `(r, k)` is
  `expShift` of row `r` at `k` and `g / spread sums` at `(r, k)` is `overSum` of row `r` at `k`.  Also the re-layings
  between `[1, 1, a, b]` and `[a, b]` read at an entry.  (The column forms and the reduction's source index come from the
  keepdims lemma file this module imports.)
-/
import Idealize.ShloMosaic.PureOps.Ideal
import Idealize.ShloMosaic.PureOps.Ideal.Laws
import Idealize.ShloMosaic.Lib.ValueIdx
import Idealize.ShloMosaic.Lib.Pipeline.Value
import proofs.«133168_j15126874816598_2_alg».proof.Proof.LibKeepdims

noncomputable section

namespace Cert.Attn

open Idealize.ShloMosaic Idealize.ShloMosaic.ValueIdx

/-- A row's maximum: the fold of `max` over its entries, from `-∞`. -/
def rowMax {n : ℕ} (f : Fin n → EReal) : EReal :=
  (Finset.univ : Finset (Fin n)).fold max (Ideal.ofBits .f32 0xFF800000#32) f

/-- The numerator of a row's softmax at `k`. -/
def expShift {n : ℕ} (f : Fin n → EReal) (k : Fin n) : EReal := Ideal.exp (f k - rowMax f)

/-- An entry of a row over the row's sum. -/
def overSum {n : ℕ} (g : Fin n → EReal) (k : Fin n) : EReal := Ideal.div (g k) (∑ j : Fin n, g j)

/-- A row's softmax at `k`. -/
def softmaxRow {n : ℕ} (f : Fin n → EReal) (k : Fin n) : EReal := overSum (expShift f) k

/-- The maximum of `-∞` and a row's maximum is the row's maximum: the fold starts from `-∞`. -/
theorem max_negInf_rowMax {n : ℕ} (f : Fin n → EReal) :
    max (Ideal.ofBits .f32 0xFF800000#32) (rowMax f) = rowMax f := by
  unfold rowMax
  exact max_eq_right ((Finset.le_fold_max _).2 (Or.inl le_rfl))

end Cert.Attn

namespace Cert.Attn.RowOps

open Idealize.ShloMosaic Idealize.ShloMosaic.ValueIdx Cert.Attn Cert.Lib.Keepdims

variable {a b : ℕ}

/-- The row maxima of `v`, spread back over the lanes, at `(r, k)`: the maximum of row `r`. -/
theorem rowMax_spread (v : FVec Ideal ⟨2, ![a, b]⟩ .f32)
    (hr : (⟨2, ![a, b]⟩ : Shape).Reduces [1] ⟨1, ![a]⟩) (hφ : FKind.Formats .f32)
    (hacc : (0xFF800000#32 : BitVec FTy.f32.bits) = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    broadcastTo ⟨2, ![a, b]⟩ (shapeCast ⟨2, ![a, 1]⟩ (multiReduction .maximumf [1] ⟨1, ![a]⟩ v 0xFF800000#32 hr hφ hacc) hc) hb (ix2 r k)
      = rowMax fun k' : Fin b => v (ix2 r k') := by
  refine (column_spread_apply _ hc hb r k).trans ?_
  refine (Ideal.multiReduction_maximumf_single v _ hr hφ hacc (ix1 r)).trans ?_
  unfold rowMax
  show (Finset.univ : Finset (Fin b)).fold max _ _ = _
  refine congrArg (fun g => (Finset.univ : Finset (Fin b)).fold max (Ideal.ofBits .f32 0xFF800000#32) g) ?_
  funext k'
  exact congrArg v (lift_axis1 hr r k')

/-- The row sums of `g`, spread back over the lanes, at `(r, k)`: the sum of row `r`. -/
theorem rowSum_spread (g : FVec Ideal ⟨2, ![a, b]⟩ .f32)
    (hr : (⟨2, ![a, b]⟩ : Shape).Reduces [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    broadcastTo ⟨2, ![a, b]⟩ (shapeCast ⟨2, ![a, 1]⟩ (multiReduction .add [1] ⟨1, ![a]⟩ g 0x00000000#32 hr hφ hacc) hc) hb (ix2 r k)
      = ∑ k' : Fin b, g (ix2 r k') := by
  refine (column_spread_apply _ hc hb r k).trans ?_
  refine (Ideal.multiReduction_add_single g _ hr hφ hacc (ix1 r)).trans ?_
  show ∑ k' : Fin b, _ = _
  refine Finset.sum_congr rfl fun k' _ => ?_
  exact congrArg g (lift_axis1 hr r k')

/-- `exp` of the array minus its spread row maxima, at `(r, k)`: the softmax numerator of row `r` at `k`. -/
theorem expShift_vec (v : FVec Ideal ⟨2, ![a, b]⟩ .f32)
    (hr : (⟨2, ![a, b]⟩ : Shape).Reduces [1] ⟨1, ![a]⟩) (hφ : FKind.Formats .f32)
    (hacc : (0xFF800000#32 : BitVec FTy.f32.bits) = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    exp (subf v (broadcastTo ⟨2, ![a, b]⟩ (shapeCast ⟨2, ![a, 1]⟩ (multiReduction .maximumf [1] ⟨1, ![a]⟩ v 0xFF800000#32 hr hφ hacc) hc) hb)) (ix2 r k)
      = expShift (fun k' : Fin b => v (ix2 r k')) k :=
  congrArg (fun M => Ideal.exp (v (ix2 r k) - M)) (rowMax_spread v hr hφ hacc hc hb r k)

/-- The array over its spread row sums, at `(r, k)`: row `r`'s entry over the row's sum. -/
theorem overSum_vec (g : FVec Ideal ⟨2, ![a, b]⟩ .f32)
    (hr : (⟨2, ![a, b]⟩ : Shape).Reduces [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    divf g (broadcastTo ⟨2, ![a, b]⟩ (shapeCast ⟨2, ![a, 1]⟩ (multiReduction .add [1] ⟨1, ![a]⟩ g 0x00000000#32 hr hφ hacc) hc) hb) (ix2 r k)
      = overSum (fun k' : Fin b => g (ix2 r k')) k :=
  congrArg (fun S => Ideal.div (g (ix2 r k)) S) (rowSum_spread g hr hφ hacc hc hb r k)

variable {α : Type}

/-- A `[1, 1, a, b]` array re-laid as `[a, b]` reads, at `(i, j)`, the operand at `(0, 0, i, j)`. -/
theorem shapeCast_11ab_ab_apply (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array re-laid as `[1, 1, a, b]` reads, at `(u, w, i, j)`, the operand at `(i, j)`. -/
theorem shapeCast_ab_11ab_apply (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw]; simp only [Nat.zero_mul, Nat.zero_add])

end Cert.Attn.RowOps

end
-- ==== Proof.RowSoftmax.lean ====
/-
  The function both programs compute, one query row at a time, on the extended reals.

  A row's maximum, the numerators `expShift`, the quotient `overSum` and `softmaxRow` are those of the row-softmax
  module this one imports.  The mask enters through the softmax of each of its rows
  scaled by `1/2048` (`maskRow`).  For a query row `q` (64 numbers), the keys and values of its head
  (2048 × 64 each) and the softmaxed mask row `μ`, the logits are `(∑ e, q e · K k e) · c` with `c` the
  f32 nearest `1/√512`, the weights are the softmax of (the softmax of the logits plus `μ`), and the output at
  `d` is `∑ k, weight k · V k d` (`attnRow`).
-/
import Idealize.ShloMosaic.PureOps.Ideal
import Idealize.ShloMosaic.PureOps.Ideal.Laws
import Idealize.ShloMosaic.Lib.ValueIdx
import proofs.«133168_j15126874816598_2_alg».proof.Proof.LibSoftmaxRows

noncomputable section

namespace Cert.Attn

open Idealize.ShloMosaic Idealize.ShloMosaic.ValueIdx

/-- The f32 word `0x45000000` is 2048. -/
theorem ofBits_2048 : Ideal.ofBits .f32 0x45000000#32 = ((2048 : ℝ) : EReal) := by
  simp [Ideal.ofBits, Ideal.ieee, -EReal.coe_mul]; norm_num

/-- The f32 word `0x3A000000` is 1/2048. -/
theorem ofBits_inv2048 : Ideal.ofBits .f32 0x3A000000#32 = ((1 / 2048 : ℝ) : EReal) := by
  simp [Ideal.ofBits, Ideal.ieee, -EReal.coe_mul]; norm_num

/-- Dividing by 2048 is multiplying by 1/2048, on every extended real. -/
theorem div_2048 (x : EReal) :
    Ideal.div x (Ideal.ofBits .f32 0x45000000#32) = x * Ideal.ofBits .f32 0x3A000000#32 := by
  rw [ofBits_2048, ofBits_inv2048, Ideal.div_coe (by norm_num)]

/-- The softmax of a mask row scaled by 1/2048. -/
def maskRow (μ : Fin 2048 → EReal) : Fin 2048 → EReal :=
  softmaxRow fun k => μ k * Ideal.ofBits .f32 0x3A000000#32

/-- The logits of one query row against the keys, scaled. -/
def logitRow (q : Fin 64 → EReal) (K : Fin 2048 → Fin 64 → EReal) (k : Fin 2048) : EReal :=
  (∑ e : Fin 64, q e * K k e) * Ideal.ofBits .f32 0x3D3504F3#32

/-- The numerators of the second softmax: of the first softmax plus the softmaxed mask row. -/
def weightNum (q : Fin 64 → EReal) (K : Fin 2048 → Fin 64 → EReal) (μ : Fin 2048 → EReal) : Fin 2048 → EReal :=
  expShift fun k => softmaxRow (logitRow q K) k + μ k

/-- One query row's output at `d`. -/
def attnRow (q : Fin 64 → EReal) (K V : Fin 2048 → Fin 64 → EReal) (μ : Fin 2048 → EReal) (d : Fin 64) : EReal :=
  ∑ k : Fin 2048, overSum (weightNum q K μ) k * V k d

/-- The whole result at `(b, h, q, d)`, from the four argument arrays. -/
def outAt (Q K V : (⟨4, ![2, 8, 2048, 64]⟩ : Shape).Idx → EReal) (M : (⟨2, ![2048, 2048]⟩ : Shape).Idx → EReal)
    (b : Fin 2) (h : Fin 8) (q : Fin 2048) (d : Fin 64) : EReal :=
  attnRow (fun e => Q (ix4 b h q e)) (fun k e => K (ix4 b h k e)) (fun k e => V (ix4 b h k e))
    (maskRow fun k => M (ix2 q k)) d

/-- The whole result array. -/
def out (Q K V : (⟨4, ![2, 8, 2048, 64]⟩ : Shape).Idx → EReal) (M : (⟨2, ![2048, 2048]⟩ : Shape).Idx → EReal) :
    (⟨4, ![2, 8, 2048, 64]⟩ : Shape).Idx → EReal :=
  fun i => outAt Q K V M (i 0) (i 1) (i 2) (i 3)

theorem out_ix4 (Q K V : (⟨4, ![2, 8, 2048, 64]⟩ : Shape).Idx → EReal) (M : (⟨2, ![2048, 2048]⟩ : Shape).Idx → EReal)
    (b : Fin 2) (h : Fin 8) (q : Fin 2048) (d : Fin 64) : out Q K V M (ix4 b h q d) = outAt Q K V M b h q d := rfl

end Cert.Attn

end
-- ==== Proof.BodyMath.lean ====
/-
  The arithmetic of the kernel body, read at an entry, in the vocabulary of the specification.

  The body's pure values are: for each 512-row chunk of the mask, the softmax of its rows scaled by 1/2048; the
  numerators of the second softmax, from a block of 512 queries, the head's keys and 512 rows of the softmaxed mask;
  the head's values re-laid as a matrix; and the output block, the normalised numerators times the values.
  The two matrix products are plain sums over the contracted axis: queries against keys contract the 64 features of
  both operands, weights against values contract the 2048 keys.
-/
import proofs.«133168_j15126874816598_2_alg».proof.Proof.Gen.KernelIdeal.Skeleton
import proofs.«133168_j15126874816598_2_alg».proof.Proof.RowSoftmax
import Idealize.ShloMosaic.PureOps.Ideal.Laws
import Idealize.ShloMosaic.Lib.ValueIdx
import Idealize.ShloMosaic.Lib.Pipeline.Value

noncomputable section

namespace Cert.Attn.Body

open Idealize.ShloMosaic Idealize.ShloMosaic.ValueIdx Cert.Attn Cert.Attn.RowOps
open Cert.KernelIdeal Cert.KernelIdeal.Gen

/-- Where the product of queries against keys reads its operands: at output `(p, j)` and contraction position `q`,
    the left operand at row `p`, the right operand at row `j`, both at column `q`. -/
theorem qk_lhs0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem qk_lhs1 (i : S512x2048.Idx) (q : dot_S512x64_S2048x64_S512x2048_1_1_0_0_n_n.contr.Idx) : (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs0 (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem qk_rhs1 (i : S512x2048.Idx) (q : dot_S512x64_S2048x64_S512x2048_1_1_0_0_n_n.contr.Idx) : (dot_S512x64_S2048x64_S512x2048_1_1_0_0_n_n.rhsIdx i q 1).val = (q ⟨0, by decide⟩).val :=
  dot_S512x64_S2048x64_S512x2048_1_1_0_0_n_n.rhsIdx_val_of_single rfl i q

/-- Queries against keys at `(p, j)`: the sum over the 64 features of query `p` times key `j`. -/
theorem scores_apply (l : FVec Ideal S512x64 .bf16) (r : FVec Ideal S2048x64 .bf16) (p : Fin 512) (j : Fin 2048) :
    matmul dot_S512x64_S2048x64_S512x2048_1_1_0_0_n_n none l r (constant (F := Ideal) S512x2048 .f32 0x00000000#32) (ix2 p j)
      = ∑ e : Fin 64, l (ix2 p e) * r (ix2 j e) := by
  refine (Ideal.matmul_constant_zero_apply dot_S512x64_S2048x64_S512x2048_1_1_0_0_n_n none l r (ix2 p j)).trans ?_
  rw [← Equiv.sum_comp (contrEquiv1 dot_S512x64_S2048x64_S512x2048_1_1_0_0_n_n 64 rfl rfl).symm]
  refine Finset.sum_congr rfl fun e _ => ?_
  have he := contrEquiv1_symm_val dot_S512x64_S2048x64_S512x2048_1_1_0_0_n_n 64 rfl rfl e
  have el : dot_S512x64_S2048x64_S512x2048_1_1_0_0_n_n.lhsIdx (ix2 p j) ((contrEquiv1 dot_S512x64_S2048x64_S512x2048_1_1_0_0_n_n 64 rfl rfl).symm e) = ix2 p e :=
    funext fun a => Fin.ext (by
      match a with
      | ⟨0, _⟩ => exact qk_lhs0 _ _
      | ⟨1, _⟩ => exact (qk_lhs1 _ _).trans he)
  have er : dot_S512x64_S2048x64_S512x2048_1_1_0_0_n_n.rhsIdx (ix2 p j) ((contrEquiv1 dot_S512x64_S2048x64_S512x2048_1_1_0_0_n_n 64 rfl rfl).symm e) = ix2 j e :=
    funext fun a => Fin.ext (by
      match a with
      | ⟨0, _⟩ => exact qk_rhs0 _ _
      | ⟨1, _⟩ => exact (qk_rhs1 _ _).trans he)
  rw [el, er]

/-- Where the product of weights against values reads its operands: at output `(p, d)` and contraction position `q`,
    the left operand at `(p, q)`, the right operand at `(q, d)`. -/
theorem pv_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem pv_lhs1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- Weights against values at `(p, d)`: the sum over the 2048 keys of weight `(p, k)` times value `(k, d)`. -/
theorem mix_apply (l : FVec Ideal S512x2048 .f32) (r : FVec Ideal S2048x64 .f32) (p : Fin 512) (d : Fin 64) :
    matmul dot_S512x2048_S2048x64_S512x64_1_0_0_1_n_n none l r (constant (F := Ideal) S512x64 .f32 0x00000000#32) (ix2 p d)
      = ∑ k : Fin 2048, l (ix2 p k) * r (ix2 k d) := by
  refine (Ideal.matmul_constant_zero_apply dot_S512x2048_S2048x64_S512x64_1_0_0_1_n_n none l r (ix2 p d)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 p d) ((contrEquiv1 dot_S512x2048_S2048x64_S512x64_1_0_0_1_n_n 2048 rfl rfl).symm k) = ix2 p k :=
    funext fun a => Fin.ext (by
      match a with
      | ⟨0, _⟩ => exact pv_lhs0 _ _
      | ⟨1, _⟩ => exact (pv_lhs1 _ _).trans hk)
  have er : dot_S512x2048_S2048x64_S512x64_1_0_0_1_n_n.rhsIdx (ix2 p d) ((contrEquiv1 dot_S512x2048_S2048x64_S512x64_1_0_0_1_n_n 2048 rfl rfl).symm k) = ix2 k d :=
    funext fun a => Fin.ext (by
      match a with
      | ⟨0, _⟩ => exact (pv_rhs0 _ _).trans hk
      | ⟨1, _⟩ => exact pv_rhs1 _ _)
  rw [el, er]

/-- A mask chunk's stored value at `(r, k)`: the softmax of row `r` of the chunk scaled by 1/2048, at `k`. -/
theorem mask_chunk_apply (v : Vec Ideal S512x2048 .f32) (r : Fin 512) (k : Fin 2048) :
    k0_pay2 (F := Ideal) v (ix2 r k) = maskRow (fun k' => v (ix2 r k')) k := by
  unfold k0_pay2
  refine (congrFun (shapeCast_self _ shapeCasts_S512x2048_S512x2048) (ix2 r k)).trans ?_
  refine (overSum_vec _ reduces_S512x2048_S512 (.inl rfl) rfl shapeCasts_S512_S512x1 broadcasts_S512x1_S512x2048 r k).trans ?_
  unfold maskRow softmaxRow
  refine congrArg (fun g => overSum g k) (funext fun k' => ?_)
  exact expShift_vec _ reduces_S512x2048_S512 (.inl rfl) rfl shapeCasts_S512_S512x1 broadcasts_S512x1_S512x2048 r k'

/-- The four chunks' stored values are one function of the chunk. -/
theorem pay3_eq (v : Vec Ideal S512x2048 .f32) : k0_pay3 (F := Ideal) v = k0_pay2 v := rfl
theorem pay4_eq (v : Vec Ideal S512x2048 .f32) : k0_pay4 (F := Ideal) v = k0_pay2 v := rfl
theorem pay5_eq (v : Vec Ideal S512x2048 .f32) : k0_pay5 (F := Ideal) v = k0_pay2 v := rfl

/-- The head's values re-laid as a matrix, at `(k, d)`. -/
theorem values_apply (x2 : Vec Ideal S1x1x2048x64 .f32) (k : Fin 2048) (d : Fin 64) :
    k0_pay6 (F := Ideal) x2 (ix2 k d) = x2 (ix4 (0 : Fin 1) (0 : Fin 1) k d) := by
  unfold k0_pay6
  exact shapeCast_11ab_ab_apply x2 shapeCasts_S1x1x2048x64_S2048x64 k d

/-- The numerators of the second softmax at `(r, k)`, from the query block, the head's keys and the 512 rows `sc` of
    the softmaxed mask. -/
theorem weights_num_apply (x0 : Vec Ideal S1x1x512x64 .f32) (x1 : Vec Ideal S1x1x2048x64 .f32)
    (sc : Vec Ideal S512x2048 .f32) (r : Fin 512) (k : Fin 2048) :
    k0_pay7 (F := Ideal) x0 x1 sc (ix2 r k)
      = weightNum (fun e => x0 (ix4 (0 : Fin 1) (0 : Fin 1) r e)) (fun k' e => x1 (ix4 (0 : Fin 1) (0 : Fin 1) k' e))
          (fun k' => sc (ix2 r k')) k := by
  unfold k0_pay7
  refine (expShift_vec _ reduces_S512x2048_S512 (.inl rfl) rfl shapeCasts_S512_S512x1 broadcasts_S512x1_S512x2048 r k).trans ?_
  unfold weightNum
  refine congrArg (fun f => expShift f k) (funext fun k' => ?_)
  show _ + sc (ix2 r k') = _ + sc (ix2 r k')
  refine congrArg (· + sc (ix2 r k')) ?_
  refine (overSum_vec _ reduces_S512x2048_S512 (.inl rfl) rfl shapeCasts_S512_S512x1 broadcasts_S512x1_S512x2048 r k').trans ?_
  unfold softmaxRow
  refine congrArg (fun g => overSum g k') (funext fun k'' => ?_)
  refine (expShift_vec _ reduces_S512x2048_S512 (.inl rfl) rfl shapeCasts_S512_S512x1 broadcasts_S512x1_S512x2048 r k'').trans ?_
  refine congrArg (fun f => expShift f k'') (funext fun j => ?_)
  unfold logitRow
  show _ * Ideal.ofBits .f32 0x3D3504F3#32 = _ * Ideal.ofBits .f32 0x3D3504F3#32
  refine congrArg (· * Ideal.ofBits .f32 0x3D3504F3#32) ?_
  refine (scores_apply _ _ r j).trans ?_
  refine Finset.sum_congr rfl fun e _ => ?_
  show shapeCast S512x64 x0 shapeCasts_S1x1x512x64_S512x64 (ix2 r e) * shapeCast S2048x64 x1 shapeCasts_S1x1x2048x64_S2048x64 (ix2 j e) = _
  rw [shapeCast_11ab_ab_apply, shapeCast_11ab_ab_apply]

/-- The output block at `(0, 0, r, d)`, from the values matrix and the numerators `w`. -/
theorem out_block_apply (vm : FVec Ideal S2048x64 .f32) (w : FVec Ideal S512x2048 .f32) (u u' : Fin 1) (r : Fin 512) (d : Fin 64) :
    k0_pay1 (F := Ideal) vm w (ix4 u u' r d) = ∑ k : Fin 2048, overSum (fun k' => w (ix2 r k')) k * vm (ix2 k d) := by
  unfold k0_pay1
  refine (shapeCast_ab_11ab_apply _ shapeCasts_S512x64_S1x1x512x64 u u' r d).trans ?_
  refine (mix_apply _ _ r d).trans ?_
  refine Finset.sum_congr rfl fun k _ => ?_
  exact congrArg (· * vm (ix2 k d)) (overSum_vec w reduces_S512x2048_S512 (.inl rfl) rfl shapeCasts_S512_S512x1 broadcasts_S512x1_S512x2048 r k)

/-- The body's output block, entry `(0, 0, r, d)`: row `r` of the query block attends over the head's keys and values
    with row `r` of the 512 rows `sc` of the softmaxed mask. -/
theorem block_apply (x0 : Vec Ideal S1x1x512x64 .f32) (x1 x2 : Vec Ideal S1x1x2048x64 .f32) (sc : Vec Ideal S512x2048 .f32)
    (u u' : Fin 1) (r : Fin 512) (d : Fin 64) :
    k0_pay1 (F := Ideal) (k0_pay6 x2) (k0_pay7 x0 x1 sc) (ix4 u u' r d)
      = attnRow (fun e => x0 (ix4 (0 : Fin 1) (0 : Fin 1) r e)) (fun k e => x1 (ix4 (0 : Fin 1) (0 : Fin 1) k e))
          (fun k e => x2 (ix4 (0 : Fin 1) (0 : Fin 1) k e)) (fun k => sc (ix2 r k)) d := by
  refine (out_block_apply _ _ u u' r d).trans ?_
  unfold attnRow
  refine Finset.sum_congr rfl fun k _ => ?_
  rw [values_apply]
  refine congrArg (fun g => overSum g k * x2 (ix4 (0 : Fin 1) (0 : Fin 1) k d)) (funext fun k' => ?_)
  exact weights_num_apply x0 x1 sc r k'

end Cert.Attn.Body

end
-- ==== Proof.MaskChunks.lean ====
/-
  The mask buffer after the body has filled it: the whole mask copied in, then each of the four 512-row chunks replaced,
  first to last, by the softmax of its rows scaled by 1/2048 — each chunk computed from a load of its own rows, which no
  earlier chunk store touches, so the load reads the copied mask.  Read back, the buffer holds at `(q, k)` the softmax of
  row `q` of the scaled mask at `k`, whatever was in it before.
-/
import proofs.«133168_j15126874816598_2_alg».proof.Proof.BodyMath
import Idealize.ShloMosaic.Lib.Pipeline.FrameBody
import Idealize.ShloMosaic.Lib.Pipeline.Value

noncomputable section

namespace Cert.Attn.Chunks

open Idealize.ShloMosaic Idealize.ShloMosaic.ValueIdx Cert.Attn Cert.Attn.Body
open Cert.KernelIdeal Cert.KernelIdeal.Gen

/-- The softmaxed mask as an array: at `(q, k)` the softmax of row `q` of the mask scaled by 1/2048, at `k`. -/
def maskSm (M : S2048x2048.Idx → EReal) : S2048x2048.Idx → EReal :=
  fun y => maskRow (fun k' : Fin 2048 => M (ix2 (y 0) k')) (y 1)

theorem maskSm_ix2 (M : S2048x2048.Idx → EReal) (q k : Fin 2048) :
    maskSm M (ix2 q k) = maskRow (fun k' => M (ix2 q k')) k := rfl

section Canon

variable {Val : EltTy → Type} [∀ e, Nonempty (Val e)]

/-- The rows `[o, o + 512)` of the buffer, as a rectangle. -/
abbrev rows (o : ℕ) (inb : ∀ a, (![o, 0] : Fin 2 → ℕ) a + S512x2048.size a ≤ S2048x2048.size a) : Rect S2048x2048 :=
  Rect.unit (s := S2048x2048) ![o, 0] S512x2048.size inb

/-- A store into rows `[o, o + 512)` does not change what is read at a row outside them. -/
theorem canon_skip (o : ℕ) (inb) (w : (rows o inb).shape.Idx → Val .f32) (L : List (View.Piece Val S2048x2048 .f32))
    (y : S2048x2048.Idx) (h : (y 0).val < o ∨ o + 512 ≤ (y 0).val) :
    View.canon ((⟨rows o inb, w⟩ : View.Piece Val S2048x2048 .f32) :: L) y = View.canon L y := by
  refine View.canon_cons_of_not_mem _ L ?_
  show y ∉ (Rect.unit (s := S2048x2048) ![o, 0] S512x2048.size inb).set
  rw [Rect.mem_set_unit]
  intro hm
  have h0 := hm 0
  change o ≤ (y 0).val ∧ (y 0).val < o + 512 at h0
  omega

/-- A store into rows `[o, o + 512)`, read at row `o + r` and column `k`, is its payload at `(r, k)`. -/
theorem canon_hit (o : ℕ) (inb) (w : S512x2048.Idx → Val .f32) (L : List (View.Piece Val S2048x2048 .f32))
    (r : Fin 512) (k : Fin 2048) (y : S2048x2048.Idx) (hy0 : (y 0).val = o + r.val) (hy1 : (y 1).val = k.val) :
    View.canon ((⟨rows o inb, w⟩ : View.Piece Val S2048x2048 .f32) :: L) y = w (ix2 r k) := by
  have e : y = (rows o inb).emb (ix2 r k) := funext fun a => Fin.ext (by
    rw [Rect.emb_apply]
    match a with
    | ⟨0, _⟩ => show (y 0).val = o + 1 * r.val; omega
    | ⟨1, _⟩ => show (y 1).val = 0 + 1 * k.val; omega)
  rw [e]
  exact View.canon_cons_emb (rows o inb) w L (ix2 r k)

/-- The whole-buffer copy, read anywhere, is what was copied. -/
theorem canon_whole (M : S2048x2048.Idx → Val .f32) (L : List (View.Piece Val S2048x2048 .f32)) :
    View.canon ((⟨Rect.whole S2048x2048, M⟩ : View.Piece Val S2048x2048 .f32) :: L) = M :=
  View.canon_cons_unit_zero rfl _ M L

end Canon

section Filled

variable (v : View sig .tc .vmem S2048x2048 .f32) (M : S2048x2048.Idx → EReal)

theorem inb0 : ∀ a, (![0, 0] : Fin 2 → ℕ) a + S512x2048.size a ≤ S2048x2048.size a := by decide
theorem inb1 : ∀ a, (![512, 0] : Fin 2 → ℕ) a + S512x2048.size a ≤ S2048x2048.size a := by decide
theorem inb2 : ∀ a, (![1024, 0] : Fin 2 → ℕ) a + S512x2048.size a ≤ S2048x2048.size a := by decide
theorem inb3 : ∀ a, (![1536, 0] : Fin 2 → ℕ) a + S512x2048.size a ≤ S2048x2048.size a := by decide

/-- The copy of the whole mask into the buffer. -/
def copied : View.Piece (Elt Ideal) S2048x2048 .f32 := ⟨Rect.whole S2048x2048, M⟩
/-- The four chunk stores, each the chunk's softmax of a load of its rows after the stores before it. -/
def chunk0 : View.Piece (Elt Ideal) S2048x2048 .f32 :=
  ⟨rows 0 inb0, k0_pay2 (F := Ideal) (v.readCov [copied M] (rows 0 inb0).toLoadRect)⟩
def chunk1 : View.Piece (Elt Ideal) S2048x2048 .f32 :=
  ⟨rows 512 inb1, k0_pay3 (F := Ideal) (v.readCov [chunk0 v M, copied M] (rows 512 inb1).toLoadRect)⟩
def chunk2 : View.Piece (Elt Ideal) S2048x2048 .f32 :=
  ⟨rows 1024 inb2, k0_pay4 (F := Ideal) (v.readCov [chunk1 v M, chunk0 v M, copied M] (rows 1024 inb2).toLoadRect)⟩
def chunk3 : View.Piece (Elt Ideal) S2048x2048 .f32 :=
  ⟨rows 1536 inb3, k0_pay5 (F := Ideal) (v.readCov [chunk2 v M, chunk1 v M, chunk0 v M, copied M] (rows 1536 inb3).toLoadRect)⟩
/-- Everything stored into the buffer at a point that fills it, last store first. -/
def filled : List (View.Piece (Elt Ideal) S2048x2048 .f32) :=
  [chunk3 v M, chunk2 v M, chunk1 v M, chunk0 v M, copied M]

/-- A load of rows `[o, o + 512)` after stores that left the mask on those rows reads the mask there. -/
theorem load_rows (L : List (View.Piece (Elt Ideal) S2048x2048 .f32)) (o : ℕ) (inb)
    (hL : ∀ z : S2048x2048.Idx, o ≤ (z 0).val → (z 0).val < o + 512 → View.canon L z = M z) (r : Fin 512) (k : Fin 2048) :
    v.readCov L (rows o inb).toLoadRect (ix2 r k) = M ((rows o inb).emb (ix2 r k)) := by
  rw [View.readCov_eq_canon']
  refine hL _ ?_ ?_
  · show o ≤ o + 1 * r.val; omega
  · show o + 1 * r.val < o + 512
    have := r.isLt; omega

/-- The chunk store of rows `[o, o + 512)`, at `(r, k)`, is the softmaxed mask at row `o + r`, column `k`. -/
theorem chunk_at (L : List (View.Piece (Elt Ideal) S2048x2048 .f32)) (o : ℕ) (inb)
    (hL : ∀ z : S2048x2048.Idx, o ≤ (z 0).val → (z 0).val < o + 512 → View.canon L z = M z) (r : Fin 512) (k : Fin 2048)
    (y : S2048x2048.Idx) (hy0 : (y 0).val = o + r.val) (hy1 : (y 1).val = k.val) :
    k0_pay2 (F := Ideal) (v.readCov L (rows o inb).toLoadRect) (ix2 r k) = maskSm M y := by
  refine (mask_chunk_apply _ r k).trans ?_
  have e0 : ∀ k' : Fin 2048, (rows o inb).emb (ix2 r k') = ix2 (y 0) k' := fun k' => funext fun a => Fin.ext (by
    rw [Rect.emb_apply]
    match a with
    | ⟨0, _⟩ => show o + 1 * r.val = (y 0).val; omega
    | ⟨1, _⟩ => show 0 + 1 * k'.val = k'.val; omega)
  have hf : (fun k' : Fin 2048 => v.readCov L (rows o inb).toLoadRect (ix2 r k')) = fun k' => M (ix2 (y 0) k') :=
    funext fun k' => (load_rows v M L o inb hL r k').trans (congrArg M (e0 k'))
  unfold maskSm
  rw [hf]
  exact congrArg _ (Fin.ext hy1.symm)

/-- Read back, the filled buffer holds the softmaxed mask at every index. -/
theorem canon_filled (y : S2048x2048.Idx) : View.canon (filled v M) y = maskSm M y := by
  have hy : (y 0).val < 2048 := (y 0).isLt
  unfold filled
  by_cases h3 : 1536 ≤ (y 0).val
  · unfold chunk3
    refine (canon_hit 1536 inb3 _ _ ⟨(y 0).val - 1536, by omega⟩ ⟨(y 1).val, (y 1).isLt⟩ y
      (by show (y 0).val = 1536 + ((y 0).val - 1536); omega) rfl).trans ?_
    refine chunk_at v M _ 1536 inb3 (fun z hz _ => ?_) _ _ y
      (by show (y 0).val = 1536 + ((y 0).val - 1536); omega) rfl
    unfold chunk2 chunk1 chunk0 copied
    refine (canon_skip 1024 inb2 _ _ z (Or.inr (by omega))).trans ?_
    refine (canon_skip 512 inb1 _ _ z (Or.inr (by omega))).trans ?_
    refine (canon_skip 0 inb0 _ _ z (Or.inr (by omega))).trans ?_
    exact congrFun (canon_whole (Val := Elt Ideal) M []) z
  · refine (canon_skip 1536 inb3 _ _ y (Or.inl (by omega))).trans ?_
    by_cases h2 : 1024 ≤ (y 0).val
    · unfold chunk2
      refine (canon_hit 1024 inb2 _ _ ⟨(y 0).val - 1024, by omega⟩ ⟨(y 1).val, (y 1).isLt⟩ y
        (by show (y 0).val = 1024 + ((y 0).val - 1024); omega) rfl).trans ?_
      refine chunk_at v M _ 1024 inb2 (fun z hz _ => ?_) _ _ y
        (by show (y 0).val = 1024 + ((y 0).val - 1024); omega) rfl
      unfold chunk1 chunk0 copied
      refine (canon_skip 512 inb1 _ _ z (Or.inr (by omega))).trans ?_
      refine (canon_skip 0 inb0 _ _ z (Or.inr (by omega))).trans ?_
      exact congrFun (canon_whole (Val := Elt Ideal) M []) z
    · refine (canon_skip 1024 inb2 _ _ y (Or.inl (by omega))).trans ?_
      by_cases h1 : 512 ≤ (y 0).val
      · unfold chunk1
        refine (canon_hit 512 inb1 _ _ ⟨(y 0).val - 512, by omega⟩ ⟨(y 1).val, (y 1).isLt⟩ y
          (by show (y 0).val = 512 + ((y 0).val - 512); omega) rfl).trans ?_
        refine chunk_at v M _ 512 inb1 (fun z hz _ => ?_) _ _ y
          (by show (y 0).val = 512 + ((y 0).val - 512); omega) rfl
        unfold chunk0 copied
        refine (canon_skip 0 inb0 _ _ z (Or.inr (by omega))).trans ?_
        exact congrFun (canon_whole (Val := Elt Ideal) M []) z
      · refine (canon_skip 512 inb1 _ _ y (Or.inl (by omega))).trans ?_
        unfold chunk0
        refine (canon_hit 0 inb0 _ _ ⟨(y 0).val, by omega⟩ ⟨(y 1).val, (y 1).isLt⟩ y
          (by show (y 0).val = 0 + (y 0).val; omega) rfl).trans ?_
        refine chunk_at v M _ 0 inb0 (fun z _ _ => ?_) _ _ y
          (by show (y 0).val = 0 + (y 0).val; omega) rfl
        unfold copied
        exact congrFun (canon_whole (Val := Elt Ideal) M []) z

end Filled

end Cert.Attn.Chunks

end
-- ==== Proof.Pieces.lean ====
/-
  What one grid point's body leaves behind, read as values on the extended reals.

  At a point that fills the mask buffer (the first of each batch) the buffer ends holding the softmaxed mask, whatever
  it held before; at every other point the body does not store into it.  At every point the output block is, at
  `(0, 0, r, d)`, query row `r` of the block attending over the head's keys and values with the buffer's row
  `offset + r`, where `offset` is 512 times the point's query-tile coordinate: at a filling point the buffer just
  filled, at another point the buffer as the point before left it.
-/
import proofs.«133168_j15126874816598_2_alg».proof.Proof.Gen.KernelIdeal.Frame
import proofs.«133168_j15126874816598_2_alg».proof.Proof.MaskChunks
import Idealize.ShloMosaic.Lib.Pipeline.Value
import Idealize.ShloMosaic.Lib.Tactic

noncomputable section

namespace Cert.Attn.Pieces

open Idealize.ShloMosaic Idealize.ShloMosaic.TcCoe Idealize.SL.Sem Idealize.ShloMosaic.ValueIdx
open Cert.Attn Cert.Attn.Body Cert.Attn.Chunks
open Cert.KernelIdeal Cert.KernelIdeal.Gen

theorem hz4 : (![0, 0, 0, 0] : Fin 4 → Nat) = fun _ => 0 := funext fun a => by fin_cases a <;> rfl

/-- The mask as the body's own copy delivers it from the array left in HBM. -/
abbrev delivered (c : Dev nD) (fh0 : HbBuf0 (F := Ideal) c hbM0_0) : S2048x2048.Idx → EReal :=
  ReadAs.same.apply (View.read (Elt Ideal) (Memref.whole main_arg3).view fh0)

/-- The rows of the mask buffer that the point at coordinates `i` reads. -/
abbrev tileRows (i : grid0.Coords) : Rect S2048x2048 :=
  Rect.unit (s := S2048x2048) (k0_off2 i) S512x2048.size (k0_off2_inb i)

/-- A FILLING point leaves the softmaxed mask in the buffer. -/
theorem scratch_A (c : Dev nD) (i : grid0.Coords) (arg4 : Memref sig .tc .vmem S1x1x512x64 .f32) (harg4 : arg4.IsWhole) (arg5 : Memref sig .tc .vmem S1x1x2048x64 .f32) (harg5 : arg5.IsWhole) (arg6 : Memref sig .tc .vmem S1x1x2048x64 .f32) (harg6 : arg6.IsWhole) (arg7 : Memref sig .tc .vmem S1x1x512x64 .f32) (harg7 : arg7.IsWhole) (arg8 : Memref sig .tc .vmem S2048x2048 .f32) (harg8 : arg8.IsWhole) (hc0 : cond0_0 i)
    (x0 : Vec Ideal S1x1x512x64 .f32) (x1 : Vec Ideal S1x1x2048x64 .f32) (x2 : Vec Ideal S1x1x2048x64 .f32) (fh0 : HbBuf0 (F := Ideal) c hbM0_0) :
    sout0_A_0 (F := Ideal) c i arg4 harg4 arg5 harg5 arg6 harg6 arg7 harg7 arg8 harg8 hc0 x0 x1 x2 fh0 = maskSm (delivered c fh0) := by
  unfold sout0_A_0
  rw [View.read_writes_eq_canon _ _ _ (scover0_A_0 c i arg4 harg4 arg5 harg5 arg6 harg6 arg7 harg7 arg8 harg8 hc0 x0 x1 x2 fh0)]
  unfold kernelRun0_A
  dsimp only
  sl_unfold_words
  funext y
  exact canon_filled arg8.view (delivered c fh0) y

/-- A filling point's output block: the rows it reads of the buffer are rows of the softmaxed mask. -/
theorem out_A (c : Dev nD) (i : grid0.Coords) (arg4 : Memref sig .tc .vmem S1x1x512x64 .f32) (harg4 : arg4.IsWhole) (arg5 : Memref sig .tc .vmem S1x1x2048x64 .f32) (harg5 : arg5.IsWhole) (arg6 : Memref sig .tc .vmem S1x1x2048x64 .f32) (harg6 : arg6.IsWhole) (arg7 : Memref sig .tc .vmem S1x1x512x64 .f32) (harg7 : arg7.IsWhole) (arg8 : Memref sig .tc .vmem S2048x2048 .f32) (harg8 : arg8.IsWhole) (hc0 : cond0_0 i)
    (x0 : Vec Ideal S1x1x512x64 .f32) (x1 : Vec Ideal S1x1x2048x64 .f32) (x2 : Vec Ideal S1x1x2048x64 .f32) (fh0 : HbBuf0 (F := Ideal) c hbM0_0) (u u' : Fin 1) (r : Fin 512) (d : Fin 64) :
    out0_A_3 (F := Ideal) c i arg4 harg4 arg5 harg5 arg6 harg6 arg7 harg7 arg8 harg8 hc0 x0 x1 x2 fh0 (ix4 u u' r d)
      = attnRow (fun e => x0 (ix4 (0 : Fin 1) (0 : Fin 1) r e)) (fun k e => x1 (ix4 (0 : Fin 1) (0 : Fin 1) k e))
          (fun k e => x2 (ix4 (0 : Fin 1) (0 : Fin 1) k e))
          (fun k' => maskSm (delivered c fh0) ((tileRows i).emb (ix2 r k'))) d := by
  unfold out0_A_3
  rw [View.read_writes_eq_canon _ _ _ (cover0_A_3 c i arg4 harg4 arg5 harg5 arg6 harg6 arg7 harg7 arg8 harg8 hc0 x0 x1 x2 fh0)]
  unfold kernelRun0_A
  dsimp only
  sl_unfold_words
  rw [View.canon_unit_zero hz4]
  simp only [View.readAt_writes_junk_eq_canon]
  simp only [View.readAt_eq_ld, harg4.read_unread, harg5.read_unread, harg6.read_unread,
    View.ld_unit_zero (S := S1x1x512x64) hz4, View.ld_unit_zero (S := S1x1x2048x64) hz4]
  refine (block_apply x0 x1 x2 _ u u' r d).trans ?_
  refine congrArg (fun μ => attnRow _ _ _ μ d) (funext fun k' => ?_)
  exact canon_filled arg8.view (delivered c fh0) _

/-- Any other point's output block: the rows it reads of the buffer as the point before left it. -/
theorem out_B (c : Dev nD) (i : grid0.Coords) (arg4 : Memref sig .tc .vmem S1x1x512x64 .f32) (harg4 : arg4.IsWhole) (arg5 : Memref sig .tc .vmem S1x1x2048x64 .f32) (harg5 : arg5.IsWhole) (arg6 : Memref sig .tc .vmem S1x1x2048x64 .f32) (harg6 : arg6.IsWhole) (arg7 : Memref sig .tc .vmem S1x1x512x64 .f32) (harg7 : arg7.IsWhole) (arg8 : Memref sig .tc .vmem S2048x2048 .f32) (harg8 : arg8.IsWhole) (hc0 : ¬cond0_0 i)
    (x0 : Vec Ideal S1x1x512x64 .f32) (x1 : Vec Ideal S1x1x2048x64 .f32) (x2 : Vec Ideal S1x1x2048x64 .f32) (xs0 : Vec Ideal S2048x2048 .f32) (fh0 : HbBuf0 (F := Ideal) c hbM0_0) (u u' : Fin 1) (r : Fin 512) (d : Fin 64) :
    out0_B_3 (F := Ideal) c i arg4 harg4 arg5 harg5 arg6 harg6 arg7 harg7 arg8 harg8 hc0 x0 x1 x2 xs0 fh0 (ix4 u u' r d)
      = attnRow (fun e => x0 (ix4 (0 : Fin 1) (0 : Fin 1) r e)) (fun k e => x1 (ix4 (0 : Fin 1) (0 : Fin 1) k e))
          (fun k e => x2 (ix4 (0 : Fin 1) (0 : Fin 1) k e))
          (fun k' => xs0 ((tileRows i).emb (ix2 r k'))) d := by
  unfold out0_B_3
  rw [View.read_writes_eq_canon _ _ _ (cover0_B_3 c i arg4 harg4 arg5 harg5 arg6 harg6 arg7 harg7 arg8 harg8 hc0 x0 x1 x2 xs0 fh0)]
  unfold kernelRun0_B
  dsimp only
  sl_unfold_words
  rw [View.canon_unit_zero hz4]
  simp only [View.readAt_eq_ld, harg4.read_unread, harg5.read_unread, harg6.read_unread, harg8.read_unread,
    View.ld_unit_zero (S := S1x1x512x64) hz4, View.ld_unit_zero (S := S1x1x2048x64) hz4]
  exact block_apply x0 x1 x2 _ u u' r d

end Cert.Attn.Pieces

end
-- ==== Proof.KernelValue.lean ====
/-
  The idealized kernel's result array is the specification's function of the argument arrays.

  The grid's 64 points run in order, batch by batch; the first point of each batch fills the mask buffer with the
  softmaxed mask and no other point stores into it, so after EVERY point the buffer holds the softmaxed mask (by
  induction on the point).  Hence at every point the output block is, row by row, the attention of the block's queries
  over the head's keys and values with the matching rows of the softmaxed mask; the block's rows are rows
  `512 · tile + r` of head `(b, h)` of the arrays, so what the point writes back is its block of the specification's
  array, and the 64 blocks tile the result array.
-/
import proofs.«133168_j15126874816598_2_alg».proof.Proof.Gen.KernelIdeal.Value
import proofs.«133168_j15126874816598_2_alg».proof.Proof.Pieces

noncomputable section

namespace Cert.Attn.KernelValue

open Idealize.ShloMosaic Idealize.ShloMosaic.TcCoe Idealize.SL.Sem Idealize.ShloMosaic.ValueIdx
open Idealize.ShloMosaic.Pipeline (Dat)
open Cert.Attn Cert.Attn.Chunks Cert.Attn.Pieces
open Cert.KernelIdeal Cert.KernelIdeal.Gen Cert.KernelIdeal.Value

variable (m : (ℓ : Loc nD τ sig) → Buf (Elt Ideal) ℓ) (ρ : Dev nD → PrngReg)

/-- The mask array as the region finds it. -/
abbrev maskArr (c : Dev nD) : S2048x2048.Idx → EReal := delivered c (V m c main_arg3)

/-- The blocks of queries, keys and values the body is given at point `t`. -/
abbrev qBlk (c : Dev nD) (t : Fin cfg0.N) : Vec Ideal S1x1x512x64 .f32 := iblk m c 0 t
abbrev kBlk (c : Dev nD) (t : Fin cfg0.N) : Vec Ideal S1x1x2048x64 .f32 := iblk m c 1 t
abbrev vBlk (c : Dev nD) (t : Fin cfg0.N) : Vec Ideal S1x1x2048x64 .f32 := iblk m c 2 t

/-- A filling point leaves the softmaxed mask in the buffer. -/
theorem scratch_at_fill (c : Dev nD) (t : Fin cfg0.N) (h0 : t.val % 32 = 0) :
    (outsAt0 m c t.val t.isLt).2 = maskSm (maskArr m c) := by
  rw [outsAt0_A m c t h0]
  dsimp only
  exact scratch_A c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t) (V m c main_arg3)

/-- After every point the buffer holds the softmaxed mask: a filling point fills it, any other point leaves it. -/
theorem scratch_eq (c : Dev nD) : ∀ (n : ℕ) (h : n < cfg0.N), (outsAt0 m c n h).2 = maskSm (maskArr m c) := by
  intro n
  induction n with
  | zero => intro h; exact scratch_at_fill m c ⟨0, h⟩ rfl
  | succ n ih =>
    intro h
    by_cases h0 : (n + 1) % 32 = 0
    · exact scratch_at_fill m c ⟨n + 1, h⟩ h0
    · rw [outsAt0_B m c ⟨n + 1, h⟩ h0]
      dsimp only
      unfold sout0_B_0
      exact ih _

/-- The output block after point `t`, at `(0, 0, r, d)`. -/
theorem out_eq (c : Dev nD) (t : Fin cfg0.N) (u u' : Fin 1) (r : Fin 512) (d : Fin 64) :
    (outsAt0 m c t.val t.isLt).1 (ix4 u u' r d)
      = attnRow (fun e => qBlk m c t (ix4 (0 : Fin 1) (0 : Fin 1) r e)) (fun k e => kBlk m c t (ix4 (0 : Fin 1) (0 : Fin 1) k e))
          (fun k e => vBlk m c t (ix4 (0 : Fin 1) (0 : Fin 1) k e))
          (fun k' => maskSm (maskArr m c) ((tileRows (grid0.coords t)).emb (ix2 r k'))) d := by
  by_cases h0 : t.val % 32 = 0
  · rw [outsAt0_A m c t h0]
    dsimp only
    exact out_A c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t) (V m c main_arg3) u u' r d
  · rw [outsAt0_B m c t h0]
    dsimp only
    rw [out_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2 (V m c main_arg3) u u' r d,
      scratch_eq m c]

/-- The printed index maps, decided over the grid: the query block moves with the output block; the key and value
    blocks follow its batch and head; the rows read of the mask buffer start at 512 times the output's tile. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = win0_3.index t (2 : Fin 4) ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0
    ∧ win0_3.index t (3 : Fin 4) = 0
    ∧ k0_off2 (grid0.coords t) (0 : Fin 2) = win0_3.index t (2 : Fin 4) * 512 ∧ k0_off2 (grid0.coords t) (1 : Fin 2) = 0
    ∧ win0_3.index t (0 : Fin 4) ≤ 1 ∧ win0_3.index t (1 : Fin 4) ≤ 7 ∧ win0_3.index t (2 : Fin 4) ≤ 3 :=
  (by decide +kernel : ∀ t : Fin grid0.N, _)

/-- Every (batch, head, tile) is some point's output block. -/
theorem idx_onto : ∀ (b : Fin 2) (h : Fin 8) (q : Fin 4), ∃ t : Fin cfg0.N, win0_3.index t = ![b.val, h.val, q.val, 0] :=
  (by decide +kernel : ∀ (b : Fin 2) (h : Fin 8) (q : Fin 4), ∃ t : Fin grid0.N, win0_3.index t = ![b.val, h.val, q.val, 0])

/-- The specification's array of the argument arrays as the region finds them. -/
abbrev G (c : Dev nD) : S2x8x2048x64.Idx → EReal :=
  Cert.Attn.out (V m c main_arg0) (V m c main_arg1) (V m c main_arg2) (maskArr m c)

/-- WHAT POINT `t` WRITES BACK is its block of the specification's array. -/
theorem flushed_eq (c : Dev nD) (t : Fin cfg0.N) :
    (dats m 0 c).flushed 3 t = ((cfg0.win 3).blk t).view.read (Elt Ideal) (G m c) := by
  rw [flushed3]
  obtain ⟨e00, e01, e02, e03, e10, e11, e12, e13, e20, e21, e22, e23, e33, eo0, eo1, b0, b1, b2⟩ := idx_facts t
  refine funext fun (j : S1x1x512x64.Idx) => ?_
  obtain ⟨u, u', r, d, rfl⟩ : ∃ (u u' : Fin 1) (r : Fin 512) (d : Fin 64), j = ix4 u u' r d := ⟨j 0, j 1, j 2, j 3, eq_ix4 j⟩
  show (outsAt0 m c t.val t.isLt).1 (ix4 u u' r d) = G m c (((cfg0.win 3).blk t).view.emb (ix4 u u' r d))
  rw [out_eq m c t u u' r d]
  have hu : u.val = 0 := by have := u.isLt; omega
  have hu' : u'.val = 0 := by have := u'.isLt; omega
  have hr : r.val < 512 := r.isLt
  have hd : d.val < 64 := d.isLt
  have hE : ((cfg0.win 3).blk t).view.emb (ix4 u u' r d)
      = ix4 (⟨win0_3.index t (0 : Fin 4), by omega⟩ : Fin 2) (⟨win0_3.index t (1 : Fin 4), by omega⟩ : Fin 8)
          (⟨win0_3.index t (2 : Fin 4) * 512 + r.val, by omega⟩ : Fin 2048) d := by
    funext a; apply Fin.ext
    match a with
    | ⟨0, _⟩ => show win0_3.index t (0 : Fin 4) * 1 + 1 * u.val = win0_3.index t (0 : Fin 4); omega
    | ⟨1, _⟩ => show win0_3.index t (1 : Fin 4) * 1 + 1 * u'.val = win0_3.index t (1 : Fin 4); omega
    | ⟨2, _⟩ => show win0_3.index t (2 : Fin 4) * 512 + 1 * r.val = win0_3.index t (2 : Fin 4) * 512 + r.val; omega
    | ⟨3, _⟩ => show win0_3.index t (3 : Fin 4) * 64 + 1 * d.val = d.val; omega
  rw [hE]
  show _ = outAt (V m c main_arg0) (V m c main_arg1) (V m c main_arg2) (maskArr m c) _ _ _ d
  unfold outAt
  have hq : (fun e : Fin 64 => qBlk m c t (ix4 (0 : Fin 1) (0 : Fin 1) r e))
      = fun e => V m c main_arg0 (ix4 (⟨win0_3.index t (0 : Fin 4), by omega⟩ : Fin 2) (⟨win0_3.index t (1 : Fin 4), by omega⟩ : Fin 8)
          (⟨win0_3.index t (2 : Fin 4) * 512 + r.val, by omega⟩ : Fin 2048) e) := by
    funext e
    show V m c main_arg0 (((cfg0.win 0).blk t).view.emb (ix4 (0 : Fin 1) (0 : Fin 1) r e)) = _
    refine congrArg (V m c main_arg0) (funext fun a => Fin.ext ?_)
    have he : e.val < 64 := e.isLt
    match a with
    | ⟨0, _⟩ => show win0_0.index t (0 : Fin 4) * 1 + 1 * 0 = win0_3.index t (0 : Fin 4); omega
    | ⟨1, _⟩ => show win0_0.index t (1 : Fin 4) * 1 + 1 * 0 = win0_3.index t (1 : Fin 4); omega
    | ⟨2, _⟩ => show win0_0.index t (2 : Fin 4) * 512 + 1 * r.val = win0_3.index t (2 : Fin 4) * 512 + r.val; omega
    | ⟨3, _⟩ => show win0_0.index t (3 : Fin 4) * 64 + 1 * e.val = e.val; omega
  have hk : (fun (k : Fin 2048) (e : Fin 64) => kBlk m c t (ix4 (0 : Fin 1) (0 : Fin 1) k e))
      = fun k e => V m c main_arg1 (ix4 (⟨win0_3.index t (0 : Fin 4), by omega⟩ : Fin 2) (⟨win0_3.index t (1 : Fin 4), by omega⟩ : Fin 8) k e) := by
    funext k e
    show V m c main_arg1 (((cfg0.win 1).blk t).view.emb (ix4 (0 : Fin 1) (0 : Fin 1) k e)) = _
    refine congrArg (V m c main_arg1) (funext fun a => Fin.ext ?_)
    have he : e.val < 64 := e.isLt
    have hk : k.val < 2048 := k.isLt
    match a with
    | ⟨0, _⟩ => show win0_1.index t (0 : Fin 4) * 1 + 1 * 0 = win0_3.index t (0 : Fin 4); omega
    | ⟨1, _⟩ => show win0_1.index t (1 : Fin 4) * 1 + 1 * 0 = win0_3.index t (1 : Fin 4); omega
    | ⟨2, _⟩ => show win0_1.index t (2 : Fin 4) * 2048 + 1 * k.val = k.val; omega
    | ⟨3, _⟩ => show win0_1.index t (3 : Fin 4) * 64 + 1 * e.val = e.val; omega
  have hv : (fun (k : Fin 2048) (e : Fin 64) => vBlk m c t (ix4 (0 : Fin 1) (0 : Fin 1) k e))
      = fun k e => V m c main_arg2 (ix4 (⟨win0_3.index t (0 : Fin 4), by omega⟩ : Fin 2) (⟨win0_3.index t (1 : Fin 4), by omega⟩ : Fin 8) k e) := by
    funext k e
    show V m c main_arg2 (((cfg0.win 2).blk t).view.emb (ix4 (0 : Fin 1) (0 : Fin 1) k e)) = _
    refine congrArg (V m c main_arg2) (funext fun a => Fin.ext ?_)
    have he : e.val < 64 := e.isLt
    have hk : k.val < 2048 := k.isLt
    match a with
    | ⟨0, _⟩ => show win0_2.index t (0 : Fin 4) * 1 + 1 * 0 = win0_3.index t (0 : Fin 4); omega
    | ⟨1, _⟩ => show win0_2.index t (1 : Fin 4) * 1 + 1 * 0 = win0_3.index t (1 : Fin 4); omega
    | ⟨2, _⟩ => show win0_2.index t (2 : Fin 4) * 2048 + 1 * k.val = k.val; omega
    | ⟨3, _⟩ => show win0_2.index t (3 : Fin 4) * 64 + 1 * e.val = e.val; omega
  have hm : (fun k' : Fin 2048 => maskSm (maskArr m c) ((tileRows (grid0.coords t)).emb (ix2 r k')))
      = maskRow fun k => maskArr m c (ix2 (⟨win0_3.index t (2 : Fin 4) * 512 + r.val, by omega⟩ : Fin 2048) k) := by
    funext k'
    have e : (tileRows (grid0.coords t)).emb (ix2 r k') = ix2 (⟨win0_3.index t (2 : Fin 4) * 512 + r.val, by omega⟩ : Fin 2048) k' := by
      funext a; apply Fin.ext
      match a with
      | ⟨0, _⟩ => show k0_off2 (grid0.coords t) (0 : Fin 2) + 1 * r.val = win0_3.index t (2 : Fin 4) * 512 + r.val; omega
      | ⟨1, _⟩ => show k0_off2 (grid0.coords t) (1 : Fin 2) + 1 * k'.val = k'.val; omega
    rw [e, maskSm_ix2]
  rw [hq, hk, hv, hm]

/-- An index of the array is in point `t`'s block iff each coordinate is in the block's range on its axis. -/
theorem mem_blk (t : Fin cfg0.N) (i : S2x8x2048x64.Idx) :
    i ∈ ((cfg0.win 3).blk t).view.set ↔ ∀ a : Fin 4, win0_3.index t a * S1x1x512x64.size a ≤ (i a).val
      ∧ (i a).val < win0_3.index t a * S1x1x512x64.size a + S1x1x512x64.size a := by
  show i ∈ ((View.whole main_v0).slice (win0_3.rect t)).set ↔ _
  rw [View.set_slice_whole, Rect.mem_set_unit]
  exact Iff.rfl

/-- The 64 output blocks cover the result array. -/
theorem cover (i : S2x8x2048x64.Idx) :
    ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 2048 := (i 2).isLt
  have h3 : (i 3).val < 64 := (i 3).isLt
  obtain ⟨t, ht⟩ := idx_onto ⟨(i 0).val, h0⟩ ⟨(i 1).val, h1⟩ ⟨(i 2).val / 512, by omega⟩
  have q0 : win0_3.index t (0 : Fin 4) = (i 0).val := congrFun ht 0
  have q1 : win0_3.index t (1 : Fin 4) = (i 1).val := congrFun ht 1
  have q2 : win0_3.index t (2 : Fin 4) = (i 2).val / 512 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- THE ARRAY after the run: the specification's array of the argument arrays. -/
theorem final (c : Dev nD) : (dats m 0 c).arrAt 3 cfg0.N = G m c :=
  (dats m 0 c).arrAt_eq_of_cover 3 (G m c) (fun t _ => flushed_eq m c t) (fun i => cover i)

/-- The frame run re-posted: the result array at the specification's array, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Attn.KernelValue

end
-- ==== Proof.RefIsOut.lean ====
/-
  The reference program's result, read index by index, is the specification's function of the four arrays.

  At the extended reals the reference computes, at `(b, h, q, d)`, the sum over the keys `k` of `w k · V (b, h, k, d)`,
  where `w` is the softmax over `k` of (the softmax over `k` of the scaled logits `(∑ e, Q (b, h, q, e) · K (b, h, k, e)) · c`,
  plus `μ k`) and `μ` is the softmax over `k` of `mask (q, k) / 2048`.  Each of its three softmaxes of a row `f` is
  `exp (f k - M) / (0 + ∑ j, exp (f j - M))` with `M = max (-∞) (the fold of max from -∞ over the row)`.

  The proof follows the program's stages, each read at explicit coordinates: the scaled mask, its row maximum, the
  numerators and the quotient of its softmax (`maskRow`); the scaled logits (`logitRow`), their row maximum and their softmax
  (`softmaxRow`); the sum of the two, its row maximum, the numerators of the second softmax (`weightNum`) and the weights
  (`overSum`); last the sum against the values (`attnRow`).  Three facts bridge the program's spelling and the
  specification's: dividing by 2048 is multiplying by 1/2048; a row maximum that is a fold from `-∞` is unchanged by one more
  maximum with `-∞`; a float sum that starts from the f32 zero is the plain sum.  A row maximum is read from the one-axis
  reduction as the fold of `max` over the reduced axis's coordinates, and the source index that coordinate `k` of a row
  visits is the row's index with `k` appended.  The index functions the generated reading module composes are identified
  with the coordinate constructors axis by axis.
-/
import proofs.«133168_j15126874816598_2_alg».proof.Proof.Gen.ReferenceIdeal.Read
import proofs.«133168_j15126874816598_2_alg».proof.Proof.RowSoftmax
import proofs.«133168_j15126874816598_2_alg».proof.Proof.LibKeepdims
import Idealize.ShloMosaic.Lib.ValueIdx
import Idealize.ShloMosaic.PureOps.Ideal.Laws
import Idealize.ShloMosaic.PureOps.Reduce

noncomputable section

namespace Cert.Attn.Ref

open Cert.ReferenceIdeal Cert.ReferenceIdeal.Read Idealize.ShloMosaic Idealize.ShloMosaic.ValueIdx

/-- The fold of the float maximum from `-∞` over a row is the row's maximum. -/
theorem fold_maximumf_eq_rowMax {n : ℕ} (g : Fin n → EReal) :
    (Finset.univ : Finset (Fin n)).fold (FloatOps.maximumf (F := Ideal) (φ := .f32)) (Ideal.ofBits .f32 0xFF800000#32) g
      = rowMax g := rfl

/-! ## The mask: its rows scaled by 1/2048 and softmaxed -/

/-- The scaled mask at `(q, k)`. -/
theorem v4_at (x3 : (⟨S2048x2048, .f32⟩ : BufTy).Contents (Elt Ideal)) (q k : Fin 2048) :
    val_main_v4 (F := Ideal) x3 (ix2 q k) = x3 (ix2 q k) * Ideal.ofBits .f32 0x3A000000#32 := by
  rw [val_main_v4_apply, val_main_v3_apply, val_main_cst_0_apply, Ideal.hostDivf_def, Ideal.ofBits_def, Cert.Attn.div_2048]

/-- The maximum of row `q` of the scaled mask. -/
theorem v5_at (x3 : (⟨S2048x2048, .f32⟩ : BufTy).Contents (Elt Ideal)) (q : Fin 2048) :
    val_main_v5 (F := Ideal) x3 (ix1 q) = rowMax fun k => x3 (ix2 q k) * Ideal.ofBits .f32 0x3A000000#32 := by
  have hr : S2048x2048.Reduces [1] S2048 := by decide
  unfold val_main_v5
  rw [Host.reduce_eq_fold_single _ _ _ _ hr]
  have hf : (val_main_v4 (F := Ideal) x3 ∘ hr.lift (ix1 q))
      = fun k : Fin 2048 => x3 (ix2 q k) * Ideal.ofBits .f32 0x3A000000#32 :=
    funext fun k => (congrArg _ (Cert.Lib.Keepdims.lift_axis1 hr q k)).trans (v4_at x3 q k)
  rw [hf, val_main_cst_1_apply, Ideal.ofBits_def]
  exact fold_maximumf_eq_rowMax _

/-- The reference's row maximum of the scaled mask, after its extra maximum with `-∞`. -/
theorem v7_at (x3 : (⟨S2048x2048, .f32⟩ : BufTy).Contents (Elt Ideal)) (q : Fin 2048) :
    val_main_v7 (F := Ideal) x3 (ix1 q) = rowMax fun k => x3 (ix2 q k) * Ideal.ofBits .f32 0x3A000000#32 := by
  rw [val_main_v7_apply, val_main_v6_apply, val_main_cst_2_apply, v5_at, Ideal.maximumf_def, Ideal.ofBits_def,
    Cert.Attn.max_negInf_rowMax]

/-- The numerator of the mask's softmax at `(q, k)`. -/
theorem v11_at (x3 : (⟨S2048x2048, .f32⟩ : BufTy).Contents (Elt Ideal)) (q k : Fin 2048) :
    val_main_v11 (F := Ideal) x3 (ix2 q k)
      = expShift (fun k' => x3 (ix2 q k') * Ideal.ofBits .f32 0x3A000000#32) k := by
  have e : idx_main_v8 (idx_main_v9 (ix2 q k)) = ix1 q :=
    funext fun a => Fin.ext (by match a with | ⟨0, _⟩ => rfl)
  rw [val_main_v11_apply, val_main_v10_apply, val_main_v9_apply, val_main_v8_apply, e, v7_at, v4_at,
    Ideal.hostUnary_exp_def, Ideal.subf_def]
  rfl

/-- The softmaxed mask at `(q, k)`. -/
theorem v15_at (x3 : (⟨S2048x2048, .f32⟩ : BufTy).Contents (Elt Ideal)) (q k : Fin 2048) :
    val_main_v15 (F := Ideal) x3 (ix2 q k) = maskRow (fun k' => x3 (ix2 q k')) k := by
  have e : idx_main_v13 (idx_main_v14 (ix2 q k)) = ix1 q :=
    funext fun a => Fin.ext (by match a with | ⟨0, _⟩ => rfl)
  have e' : ∀ k' : Fin 2048, idx_main_v12 (ix1 q) k' = ix2 q k' := fun k' =>
    funext fun a => Fin.ext (by match a with | ⟨0, _⟩ => rfl | ⟨1, _⟩ => rfl)
  rw [val_main_v15_apply, val_main_v14_apply, val_main_v13_apply, e, val_main_v12_apply, val_main_cst_3_apply,
    Ideal.ofBits_def, Ideal.ofBits_zero_f32, zero_add, v11_at, Ideal.hostDivf_def]
  simp only [e', v11_at]
  rfl

/-! ## The logits and their softmax -/

/-- The scaled logit at `(b, h, q, k)`. -/
theorem v2_at (x0 x1 : (⟨S2x8x2048x64, .f32⟩ : BufTy).Contents (Elt Ideal)) (b : Fin 2) (h : Fin 8) (q k : Fin 2048) :
    val_main_v2 (F := Ideal) x0 x1 (ix4 b h q k)
      = logitRow (fun e => x0 (ix4 b h q e)) (fun k' e => x1 (ix4 b h k' e)) k := by
  have el : ∀ e : Fin 64, lidx_main_v0 (ix4 b h q k) e = ix4 b h q e := fun e =>
    funext fun a => Fin.ext (by match a with | ⟨0, _⟩ => rfl | ⟨1, _⟩ => rfl | ⟨2, _⟩ => rfl | ⟨3, _⟩ => rfl)
  have er : ∀ e : Fin 64, ridx_main_v0 (ix4 b h q k) e = ix4 b h k e := fun e =>
    funext fun a => Fin.ext (by match a with | ⟨0, _⟩ => rfl | ⟨1, _⟩ => rfl | ⟨2, _⟩ => rfl | ⟨3, _⟩ => rfl)
  rw [val_main_v2_apply, val_main_v0_apply, val_main_v1_apply, val_main_cst_apply, Ideal.mulf_def, Ideal.ofBits_def]
  simp only [el, er]
  rfl

/-- A one-axis reduction of `[a, b, c, d]` along axis 3 visits, for the row `(p0, p1, p2)` and coordinate `k` of the
    reduced axis, the source index `(p0, p1, p2, k)`. -/
theorem lift_axis3 {a b c d : ℕ} (h : (⟨4, ![a, b, c, d]⟩ : Shape).Reduces [3] ⟨3, ![a, b, c]⟩) (p0 : Fin a) (p1 : Fin b)
    (p2 : Fin c) (k : Fin d) : h.lift (ix3 p0 p1 p2) k = ix4 p0 p1 p2 k :=
  funext fun e => Fin.ext (by match e with | ⟨0, _⟩ => rfl | ⟨1, _⟩ => rfl | ⟨2, _⟩ => rfl | ⟨3, _⟩ => rfl)

/-- The maximum of the logits' row `(b, h, q)`. -/
theorem v16_at (x0 x1 : (⟨S2x8x2048x64, .f32⟩ : BufTy).Contents (Elt Ideal)) (b : Fin 2) (h : Fin 8) (q : Fin 2048) :
    val_main_v16 (F := Ideal) x0 x1 (ix3 b h q)
      = rowMax (logitRow (fun e => x0 (ix4 b h q e)) (fun k' e => x1 (ix4 b h k' e))) := by
  have hr : S2x8x2048x2048.Reduces [3] S2x8x2048 := by decide
  unfold val_main_v16
  rw [Host.reduce_eq_fold_single _ _ _ _ hr]
  have hf : (val_main_v2 (F := Ideal) x0 x1 ∘ hr.lift (ix3 b h q))
      = logitRow (fun e => x0 (ix4 b h q e)) (fun k' e => x1 (ix4 b h k' e)) :=
    funext fun k => (congrArg _ (lift_axis3 hr b h q k)).trans (v2_at x0 x1 b h q k)
  rw [hf, val_main_cst_4_apply, Ideal.ofBits_def]
  exact fold_maximumf_eq_rowMax _

/-- The reference's row maximum of the logits, after its extra maximum with `-∞`. -/
theorem v18_at (x0 x1 : (⟨S2x8x2048x64, .f32⟩ : BufTy).Contents (Elt Ideal)) (b : Fin 2) (h : Fin 8) (q : Fin 2048) :
    val_main_v18 (F := Ideal) x0 x1 (ix3 b h q)
      = rowMax (logitRow (fun e => x0 (ix4 b h q e)) (fun k' e => x1 (ix4 b h k' e))) := by
  rw [val_main_v18_apply, val_main_v17_apply, val_main_cst_5_apply, v16_at, Ideal.maximumf_def, Ideal.ofBits_def,
    Cert.Attn.max_negInf_rowMax]

/-- The numerator of the logits' softmax at `(b, h, q, k)`. -/
theorem v22_at (x0 x1 : (⟨S2x8x2048x64, .f32⟩ : BufTy).Contents (Elt Ideal)) (b : Fin 2) (h : Fin 8) (q k : Fin 2048) :
    val_main_v22 (F := Ideal) x0 x1 (ix4 b h q k)
      = expShift (logitRow (fun e => x0 (ix4 b h q e)) (fun k' e => x1 (ix4 b h k' e))) k := by
  have e : idx_main_v19 (idx_main_v20 (ix4 b h q k)) = ix3 b h q :=
    funext fun a => Fin.ext (by match a with | ⟨0, _⟩ => rfl | ⟨1, _⟩ => rfl | ⟨2, _⟩ => rfl)
  rw [val_main_v22_apply, val_main_v21_apply, val_main_v20_apply, val_main_v19_apply, e, v18_at, v2_at,
    Ideal.hostUnary_exp_def, Ideal.subf_def]
  rfl

/-- The logits' softmax at `(b, h, q, k)`. -/
theorem v26_at (x0 x1 : (⟨S2x8x2048x64, .f32⟩ : BufTy).Contents (Elt Ideal)) (b : Fin 2) (h : Fin 8) (q k : Fin 2048) :
    val_main_v26 (F := Ideal) x0 x1 (ix4 b h q k)
      = softmaxRow (logitRow (fun e => x0 (ix4 b h q e)) (fun k' e => x1 (ix4 b h k' e))) k := by
  have e : idx_main_v24 (idx_main_v25 (ix4 b h q k)) = ix3 b h q :=
    funext fun a => Fin.ext (by match a with | ⟨0, _⟩ => rfl | ⟨1, _⟩ => rfl | ⟨2, _⟩ => rfl)
  have e' : ∀ k' : Fin 2048, idx_main_v23 (ix3 b h q) k' = ix4 b h q k' := fun k' =>
    funext fun a => Fin.ext (by match a with | ⟨0, _⟩ => rfl | ⟨1, _⟩ => rfl | ⟨2, _⟩ => rfl | ⟨3, _⟩ => rfl)
  rw [val_main_v26_apply, val_main_v25_apply, val_main_v24_apply, e, val_main_v23_apply, val_main_cst_6_apply,
    Ideal.ofBits_def, Ideal.ofBits_zero_f32, zero_add, v22_at, Ideal.hostDivf_def]
  simp only [e', v22_at]
  rfl

/-! ## The second softmax and the weighted sum of the values -/

/-- The first softmax plus the softmaxed mask, at `(b, h, q, k)`. -/
theorem v29_at (x0 x1 : (⟨S2x8x2048x64, .f32⟩ : BufTy).Contents (Elt Ideal)) (x3 : (⟨S2048x2048, .f32⟩ : BufTy).Contents (Elt Ideal))
    (b : Fin 2) (h : Fin 8) (q k : Fin 2048) :
    val_main_v29 (F := Ideal) x0 x1 x3 (ix4 b h q k)
      = softmaxRow (logitRow (fun e => x0 (ix4 b h q e)) (fun k' e => x1 (ix4 b h k' e))) k
        + maskRow (fun k' => x3 (ix2 q k')) k := by
  have e : idx_main_v27 (idx_main_v28 (ix4 b h q k)) = ix2 q k :=
    funext fun a => Fin.ext (by match a with | ⟨0, _⟩ => rfl | ⟨1, _⟩ => rfl)
  rw [val_main_v29_apply, val_main_v28_apply, val_main_v27_apply, e, v15_at, v26_at, Ideal.addf_def]

/-- The maximum of row `(b, h, q)` of that sum. -/
theorem v30_at (x0 x1 : (⟨S2x8x2048x64, .f32⟩ : BufTy).Contents (Elt Ideal)) (x3 : (⟨S2048x2048, .f32⟩ : BufTy).Contents (Elt Ideal))
    (b : Fin 2) (h : Fin 8) (q : Fin 2048) :
    val_main_v30 (F := Ideal) x0 x1 x3 (ix3 b h q)
      = rowMax fun k => softmaxRow (logitRow (fun e => x0 (ix4 b h q e)) (fun k' e => x1 (ix4 b h k' e))) k
        + maskRow (fun k' => x3 (ix2 q k')) k := by
  have hr : S2x8x2048x2048.Reduces [3] S2x8x2048 := by decide
  unfold val_main_v30
  rw [Host.reduce_eq_fold_single _ _ _ _ hr]
  have hf : (val_main_v29 (F := Ideal) x0 x1 x3 ∘ hr.lift (ix3 b h q))
      = fun k : Fin 2048 => softmaxRow (logitRow (fun e => x0 (ix4 b h q e)) (fun k' e => x1 (ix4 b h k' e))) k
        + maskRow (fun k' => x3 (ix2 q k')) k :=
    funext fun k => (congrArg _ (lift_axis3 hr b h q k)).trans (v29_at x0 x1 x3 b h q k)
  rw [hf, val_main_cst_7_apply, Ideal.ofBits_def]
  exact fold_maximumf_eq_rowMax _

/-- The reference's row maximum of that sum, after its extra maximum with `-∞`. -/
theorem v32_at (x0 x1 : (⟨S2x8x2048x64, .f32⟩ : BufTy).Contents (Elt Ideal)) (x3 : (⟨S2048x2048, .f32⟩ : BufTy).Contents (Elt Ideal))
    (b : Fin 2) (h : Fin 8) (q : Fin 2048) :
    val_main_v32 (F := Ideal) x0 x1 x3 (ix3 b h q)
      = rowMax fun k => softmaxRow (logitRow (fun e => x0 (ix4 b h q e)) (fun k' e => x1 (ix4 b h k' e))) k
        + maskRow (fun k' => x3 (ix2 q k')) k := by
  rw [val_main_v32_apply, val_main_v31_apply, val_main_cst_8_apply, v30_at, Ideal.maximumf_def, Ideal.ofBits_def,
    Cert.Attn.max_negInf_rowMax]

/-- The numerator of the second softmax at `(b, h, q, k)`. -/
theorem v36_at (x0 x1 : (⟨S2x8x2048x64, .f32⟩ : BufTy).Contents (Elt Ideal)) (x3 : (⟨S2048x2048, .f32⟩ : BufTy).Contents (Elt Ideal))
    (b : Fin 2) (h : Fin 8) (q k : Fin 2048) :
    val_main_v36 (F := Ideal) x0 x1 x3 (ix4 b h q k)
      = weightNum (fun e => x0 (ix4 b h q e)) (fun k' e => x1 (ix4 b h k' e)) (maskRow fun k' => x3 (ix2 q k')) k := by
  have e : idx_main_v33 (idx_main_v34 (ix4 b h q k)) = ix3 b h q :=
    funext fun a => Fin.ext (by match a with | ⟨0, _⟩ => rfl | ⟨1, _⟩ => rfl | ⟨2, _⟩ => rfl)
  rw [val_main_v36_apply, val_main_v35_apply, val_main_v34_apply, val_main_v33_apply, e, v32_at, v29_at,
    Ideal.hostUnary_exp_def, Ideal.subf_def]
  rfl

/-- The attention weight at `(b, h, q, k)`. -/
theorem v40_at (x0 x1 : (⟨S2x8x2048x64, .f32⟩ : BufTy).Contents (Elt Ideal)) (x3 : (⟨S2048x2048, .f32⟩ : BufTy).Contents (Elt Ideal))
    (b : Fin 2) (h : Fin 8) (q k : Fin 2048) :
    val_main_v40 (F := Ideal) x0 x1 x3 (ix4 b h q k)
      = overSum (weightNum (fun e => x0 (ix4 b h q e)) (fun k' e => x1 (ix4 b h k' e)) (maskRow fun k' => x3 (ix2 q k'))) k := by
  have e : idx_main_v38 (idx_main_v39 (ix4 b h q k)) = ix3 b h q :=
    funext fun a => Fin.ext (by match a with | ⟨0, _⟩ => rfl | ⟨1, _⟩ => rfl | ⟨2, _⟩ => rfl)
  have e' : ∀ k' : Fin 2048, idx_main_v37 (ix3 b h q) k' = ix4 b h q k' := fun k' =>
    funext fun a => Fin.ext (by match a with | ⟨0, _⟩ => rfl | ⟨1, _⟩ => rfl | ⟨2, _⟩ => rfl | ⟨3, _⟩ => rfl)
  rw [val_main_v40_apply, val_main_v39_apply, val_main_v38_apply, e, val_main_v37_apply, val_main_cst_9_apply,
    Ideal.ofBits_def, Ideal.ofBits_zero_f32, zero_add, v36_at, Ideal.hostDivf_def]
  simp only [e', v36_at]
  rfl

end Cert.Attn.Ref

open Cert.ReferenceIdeal Idealize.ShloMosaic Idealize.ShloMosaic.ValueIdx in
/-- The reference's result is the specification's function of the four arrays. -/
theorem Cert.Attn.Ref.val_eq_out
    (x0 x1 x2 : (⟨S2x8x2048x64, .f32⟩ : BufTy).Contents (Elt Ideal)) (x3 : (⟨S2048x2048, .f32⟩ : BufTy).Contents (Elt Ideal)) :
    Cert.ReferenceIdeal.Read.val_main_v41 (F := Ideal) x0 x1 x2 x3 = Cert.Attn.out x0 x1 x2 x3 := by
  funext i
  obtain ⟨b, h, q, d, rfl⟩ : ∃ (b : Fin 2) (h : Fin 8) (q : Fin 2048) (d : Fin 64), i = ix4 b h q d :=
    ⟨i 0, i 1, i 2, i 3, eq_ix4 i⟩
  have el : ∀ k : Fin 2048, Cert.ReferenceIdeal.Read.lidx_main_v41 (ix4 b h q d) k = ix4 b h q k := fun k =>
    funext fun a => Fin.ext (by match a with | ⟨0, _⟩ => rfl | ⟨1, _⟩ => rfl | ⟨2, _⟩ => rfl | ⟨3, _⟩ => rfl)
  have er : ∀ k : Fin 2048, Cert.ReferenceIdeal.Read.ridx_main_v41 (ix4 b h q d) k = ix4 b h k d := fun k =>
    funext fun a => Fin.ext (by match a with | ⟨0, _⟩ => rfl | ⟨1, _⟩ => rfl | ⟨2, _⟩ => rfl | ⟨3, _⟩ => rfl)
  rw [Cert.Attn.out_ix4, Cert.ReferenceIdeal.Read.val_main_v41_apply]
  simp only [el, er, Cert.Attn.Ref.v40_at]
  rfl

end
-- ==== Proof.lean ====
/-
  Double-softmax attention with an additive softmaxed mask: the kernel against its jnp reference, on the extended reals.

  For batch `b`, head `h`, query `q` and feature `d` both programs compute
  `∑ k, w k · V (b, h, k, d)`, where `w` is the softmax over the keys `k` of
  (the softmax over `k` of the scaled logits `(∑ e, Q (b, h, q, e) · K (b, h, k, e)) · c`, plus `μ k`), `c` the f32
  nearest `1/√512`, and `μ` the softmax over `k` of the mask's row `q` scaled by `1/2048`.

  The reference computes this over whole arrays.  The kernel walks a grid of 2 × 8 × 4 points (batch, head, tile of 512
  queries); at the first point of each batch it copies the mask into a buffer and replaces it, 512 rows at a time, by its
  row softmax, and every point reads its 512 rows of that buffer; it rounds the queries and keys to bf16 before their
  product, which is the identity on the extended reals, and multiplies the mask by `1/2048` where the reference divides by
  `2048`, which is the same function on every extended real.  Row maxima are folds of `max` from `-∞` on both sides, and
  both matrix products are plain sums over the contracted axis.  No law used needs finiteness: the precondition is not
  opened.

  The three frames are the generated ones (the reference's from its generated run); the idealization rewrote nothing, so
  `preserves` is `True`; `algebraic` sets the kernel's run (`Cert.Attn.KernelValue.run`) beside the reference's generated
  run read as the same specification (`Cert.Attn.Ref.val_eq_out`).
-/
import proofs.«133168_j15126874816598_2_alg».proof.Defs
import proofs.«133168_j15126874816598_2_alg».proof.Proof.Gen.Kernel
import proofs.«133168_j15126874816598_2_alg».proof.Proof.Gen.Kernel.Frame
import proofs.«133168_j15126874816598_2_alg».proof.Proof.Gen.KernelIdeal
import proofs.«133168_j15126874816598_2_alg».proof.Proof.Gen.KernelIdeal.Frame
import proofs.«133168_j15126874816598_2_alg».proof.Proof.Gen.KernelIdeal.Value
import proofs.«133168_j15126874816598_2_alg».proof.Proof.Gen.ReferenceIdeal
import proofs.«133168_j15126874816598_2_alg».proof.Proof.Gen.ReferenceIdeal.Run
import proofs.«133168_j15126874816598_2_alg».proof.Proof.Gen.ReferenceIdeal.Read
import proofs.«133168_j15126874816598_2_alg».proof.Proof.Gen.Pre_finite_inputs
import proofs.«133168_j15126874816598_2_alg».proof.Proof.KernelValue
import proofs.«133168_j15126874816598_2_alg».proof.Proof.RefIsOut
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both programs end with the specification's array of them. -/
theorem algebraic : Cert.algebraic_KernelIdeal_ReferenceIdeal := by
  intro m ρ m' ρ' _ hagree
  refine ⟨fun c => Cert.Attn.KernelValue.G m c, Cert.Attn.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.Attn.Ref.val_eq_out, (hagree c).1, (hagree c).2.1,
    (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
